-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x1024 : Shape := ⟨3, ![64, 256, 1024]⟩
abbrev S64x256x256 : Shape := ⟨3, ![64, 256, 256]⟩
abbrev S1024x512 : Shape := ⟨2, ![1024, 512]⟩
abbrev S512 : Shape := ⟨1, ![512]⟩
abbrev S_ : Shape := ⟨0, ![]⟩

class Facts : Prop where
  bcast_S_S64x256x1024 : S_.BroadcastsInDim S64x256x1024 (![] : Fin 0 → Fin S64x256x1024.rank)
  reducesTo_S64x256x1024_S_d0_1_2 : S64x256x1024.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_arg6 : FVec F S1024x512 .f32) (main_arg7 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg6
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S64x256x1024 .f32) (main_arg1 : IVec S64x256x256 32) (main_arg2 : FVec F S1024x512 .f32) (main_arg3 : FVec F S512 .f32) (main_arg4 : FVec F S1024x512 .f32) (main_arg5 : FVec F S512 .f32) (main_arg6 : FVec F S1024x512 .f32) (main_arg7 : FVec F S512 .f32) : IVec S_ 1 :=
  let main_v0 : FVec F S64x256x1024 .f32 := Host.absf main_arg0
  let main_cst : FVec F S_ .f32 := constant S_ .f32 0x7F800000#32
  let main_v1 : FVec F S64x256x1024 .f32 := broadcastInDim S64x256x1024 ![] bcast_S_S64x256x1024 main_cst
  let main_v2 : IVec S64x256x1024 1 := cmpf .olt main_v0 main_v1
  let main_c : IVec S_ 1 := constantI S_ 1 1#1
  let main_v3 : IVec S_ 1 := (fun x v => Host.reduce IntOp.andi x v reducesTo_S64x256x1024_S_d0_1_2 h_S_) main_v2 main_c
  let main_v4 : FVec F S1024x512 .f32 := Host.absf main_arg2
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x512 .f32 := Host.absf main_arg4
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg5 main_arg6 main_arg7 main_v13 main_v16
-- ==== Kernel.lean ====
abbrev S64x256x1024 : Shape := ⟨3, ![64, 256, 1024]⟩
abbrev S64x256x256 : Shape := ⟨3, ![64, 256, 256]⟩
abbrev S1024x512 : Shape := ⟨2, ![1024, 512]⟩
abbrev S512 : Shape := ⟨1, ![512]⟩
abbrev S16384x1024 : Shape := ⟨2, ![16384, 1024]⟩
abbrev S_ : Shape := ⟨0, ![]⟩
abbrev S1x512 : Shape := ⟨2, ![1, 512]⟩
abbrev S16384x512 : Shape := ⟨2, ![16384, 512]⟩
abbrev S2048x1024 : Shape := ⟨2, ![2048, 1024]⟩
abbrev S2048x512 : Shape := ⟨2, ![2048, 512]⟩
abbrev S64x256x512 : Shape := ⟨3, ![64, 256, 512]⟩

abbrev nBuf : Space → Nat
  | .hbm => 29
  | .vmem => 6
  | .smem => 0
  | _ => 0

abbrev bufTy : (tb : Table) → Fin (tcTables nBuf tb) → BufTy
  | .hbm, ⟨0, _⟩ => ⟨S64x256x1024, .f32⟩
  | .hbm, ⟨1, _⟩ => ⟨S64x256x256, .i32⟩
  | .hbm, ⟨2, _⟩ => ⟨S1024x512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S1024x512, .f32⟩
  | .hbm, ⟨7, _⟩ => ⟨S512, .f32⟩
  | .hbm, ⟨8, _⟩ => ⟨S16384x1024, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x512, .bf16⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S1x512, .f32⟩
  | .hbm, ⟨27, _⟩ => ⟨S16384x512, .f32⟩
  | .hbm, ⟨28, _⟩ => ⟨S64x256x512, .f32⟩
  | .local _ .vmem, ⟨0, _⟩ => ⟨S2048x1024, .f32⟩
  | .local _ .vmem, ⟨1, _⟩ => ⟨S2048x1024, .f32⟩
  | .local _ .vmem, ⟨2, _⟩ => ⟨S1024x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S64x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x256x1024_S16384x1024 : S64x256x1024.ShapeCasts S16384x1024
  bcast_S_S1024x512 : S_.BroadcastsInDim S1024x512 (![] : Fin 0 → Fin S1024x512.rank)
  bitsLt_bf16_f32 : FTy.bits .bf16 < FTy.bits .f32
  bcast_S_S512 : S_.BroadcastsInDim S512 (![] : Fin 0 → Fin S512.rank)
  shapeCasts_S512_S1x512 : S512.ShapeCasts S1x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S16384x512_S64x256x512 : S16384x512.ShapeCasts S64x256x512
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S16384x512.size a
  hwx0_3 : ∀ i : grid0.Coords, EltTy.bits .f32 = 32 ∨ (Rect.block (s := S16384x512) S2048x512.size (cc0_transform_3 i) (hinb0_3 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x1024 : Shape := ⟨3, ![64, 256, 1024]⟩
abbrev S64x256x256 : Shape := ⟨3, ![64, 256, 256]⟩
abbrev S1024x512 : Shape := ⟨2, ![1024, 512]⟩
abbrev S512 : Shape := ⟨1, ![512]⟩
abbrev S16384x1024 : Shape := ⟨2, ![16384, 1024]⟩
abbrev S16384x512 : Shape := ⟨2, ![16384, 512]⟩
abbrev S1x512 : Shape := ⟨2, ![1, 512]⟩
abbrev S_ : Shape := ⟨0, ![]⟩
abbrev S64x256x512 : Shape := ⟨3, ![64, 256, 512]⟩

abbrev nBuf : Space → Nat
  | .hbm => 30
  | .vmem => 0
  | .smem => 0
  | _ => 0

abbrev bufTy : (tb : Table) → Fin (tcTables nBuf tb) → BufTy
  | .hbm, ⟨0, _⟩ => ⟨S64x256x1024, .f32⟩
  | .hbm, ⟨1, _⟩ => ⟨S64x256x256, .i32⟩
  | .hbm, ⟨2, _⟩ => ⟨S1024x512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S1024x512, .f32⟩
  | .hbm, ⟨7, _⟩ => ⟨S512, .f32⟩
  | .hbm, ⟨8, _⟩ => ⟨S16384x1024, .f32⟩
  | .hbm, ⟨9, _⟩ => ⟨S16384x512, .f32⟩
  | .hbm, ⟨10, _⟩ => ⟨S1x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S1x512, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S1x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S64x256x512, .f32⟩
  | _, _ => ⟨S64x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  shapeCasts_S64x256x1024_S16384x1024 : S64x256x1024.ShapeCasts S16384x1024
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  shapeCasts_S16384x512_S64x256x512 : S16384x512.ShapeCasts S64x256x512
  dot_S16384x1024_S1024x512_S16384x512_1_0_0_1_n_n_wf : DotDims.WF S16384x1024 S1024x512 S16384x512 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.LibPlainDot.lean ====
/-
  The matrix product of an [M, K] array and a [K, N] array, read at one entry.

  Whatever record carries the dimension numbers of a plain product (contract the left operand's columns with the right
  operand's rows, no batch axis), entry (p, q) of a kernel's product into a zero accumulator, and of a host program's
  product, is the sum over k of left (p, k) times right (k, q): it depends on the left operand through row p alone.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The dimension numbers of a plain M×K by K×N product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The contraction's sum, re-indexed by the one contracted coordinate. -/
theorem contr_sum (d : DotDims ⟨2, ![M, K]⟩ ⟨2, ![K, N]⟩ ⟨2, ![M, N]⟩) (hd : IsPlain d)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = d
  have hlc : d.lhsContracting = [1] := by rw [← hD]
  have hrc : d.rhsContracting = [0] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hD
      unfold DotDims.rhsIdx
      dsimp only
      repeat' split
      all_goals first | rfl | (exfalso; simp_all))
  rw [el, er]

/-- A kernel's product into a zero accumulator at entry (p, q). -/
theorem matmul_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact contr_sum d hd lhs rhs p q

/-- A host program's product at entry (p, q). -/
theorem dotGeneral_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec _ lhs rhs (ix2 p q) = _
  rw [Ideal.dotGeneral_apply]
  exact contr_sum d hd lhs rhs p q

end Cert.PlainDot

end
-- ==== Proof.KernelBody.lean ====
/-
  The kernel body's stored value at one entry.

  At a grid point the body holds a [2048, 1024] block of rows x, the whole [1024, 512] combined weight w (rounded to bf16,
  which is the identity on extended reals) and the [1, 512] combined offset b, and stores
      (x · w) + b   broadcast over the rows.
  So entry (p, q) of what it stores is   ∑ k, x (p, k) * w (k, q)  +  b (0, q).
-/
import proofs.«100815_j42640435315454_2_alg».proof.Proof.Gen.KernelIdeal.Skeleton
import proofs.«100815_j42640435315454_2_alg».proof.Proof.LibPlainDot
import Idealize.ShloMosaic.Lib.ValueLayout

noncomputable section

namespace Cert.KernelIdeal.Body

open Cert.KernelIdeal Cert.KernelIdeal.Gen Idealize.ShloMosaic Idealize.ShloMosaic.ValueIdx

/-- The body's product contracts the rows' columns with the weight's rows, and has no batch axis. -/
theorem plain : Cert.PlainDot.IsPlain (M := 2048) (K := 1024) (N := 512) dot_S2048x1024_S1024x512_S2048x512_1_0_0_1_n_n :=
  ⟨rfl, rfl, rfl, rfl, rfl, rfl⟩

/-- Entry (p, q) of the value the body stores: row p of the block against column q of the weight, plus the offset at q. -/
theorem pay_apply (x0 : Vec Ideal S2048x1024 .f32) (x1 : Vec Ideal S1024x512 .bf16) (x2 : Vec Ideal S1x512 .f32)
    (p : Fin 2048) (q : Fin 512) :
    k0_pay1 (F := Ideal) x0 x1 x2 (ix2 p q)
      = (∑ k : Fin 1024, x0 (ix2 p k) * x1 (ix2 k q)) + x2 (ix2 (0 : Fin 1) q) := by
  unfold k0_pay1
  show (matmul (F := Ideal) dot_S2048x1024_S1024x512_S2048x512_1_0_0_1_n_n none
          (truncf (F := Ideal) .bf16 (shapeCast S2048x1024 x0 shapeCasts_S2048x1024_S2048x1024) bitsLt_bf16_f32)
          (shapeCast S1024x512 x1 shapeCasts_S1024x512_S1024x512) (constant (F := Ideal) S2048x512 .f32 0x00000000#32)) (ix2 p q)
        + (broadcastTo S2048x512 (shapeCast S1x512 x2 shapeCasts_S1x512_S1x512) broadcasts_S1x512_S2048x512) (ix2 p q) = _
  rw [shapeCast_self, shapeCast_self, shapeCast_self]
  refine congrArg₂ (· + ·) ?_ ?_
  · exact Cert.PlainDot.matmul_apply (φ₁ := .bf16) (φ₂ := .bf16) _ plain none
      (truncf (F := Ideal) .bf16 x0 bitsLt_bf16_f32) x1 p q
  · exact broadcastTo_1b_ab_apply x2 _ p q

end Cert.KernelIdeal.Body

end
-- ==== Proof.KernelBlocks.lean ====
/-
  From the blocks the grid points write back to the whole [16384, 512] output array.

  Point t of the 8-point grid works on rows 2048·t … 2048·t + 2047: it reads that block of the rows R, the whole weight W and
  the whole offset B (their block indices are 0 at every point), and writes back the same block of rows of the output.
  By the body's value at an entry, the block it writes back is the block of
      rowsTimes R W B : (r, q) ↦ ∑ k, R (r, k) * W (k, q) + B (0, q),
  and the 8 blocks cover the array, so the array ends holding rowsTimes R W B.
-/
import proofs.«100815_j42640435315454_2_alg».proof.Proof.Gen.KernelIdeal.Frame
import proofs.«100815_j42640435315454_2_alg».proof.Proof.KernelBody
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Every row of R against the weight W, plus the offset B: the whole output array as one function. -/
def rowsTimes (R : S16384x1024.Idx → EReal) (W : S1024x512.Idx → EReal) (B : S1x512.Idx → EReal) :
    S16384x512.Idx → EReal :=
  fun i => (∑ k : Fin 1024, R (ix2 (i 0) k) * W (ix2 k (i 1))) + B (ix2 (0 : Fin 1) (i 1))

theorem hz : (![0, 0] : Fin 2 → Nat) = fun _ => 0 := funext fun a => by fin_cases a <;> rfl

/-- The printed index maps over the grid: the rows' block and the output's block sit at row-block t, everything else at 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows' block at point t, at (p, k), is the rows array at (2048·t + p, k). -/
theorem rows_blk (c : Dev nD) (t : Fin cfg0.N) (p : Fin 2048) (k : Fin 1024) (r : Fin 16384) (hr : r.val = t.val * 2048 + p.val) :
    iblk m c 0 t (ix2 p k) = (V m c main_v0 : S16384x1024.Idx → EReal) (ix2 r k) := by
  obtain ⟨e0, e1, -⟩ := idx_facts t
  show V m c main_v0 (((cfg0.win 0).blk t).view.emb (ix2 p k)) = V m c main_v0 (ix2 r k)
  refine congrArg (V m c main_v0 : S16384x1024.Idx → EReal) (funext fun a => Fin.ext ?_)
  match a with
  | ⟨0, _⟩ => show win0_0.index t (0 : Fin 2) * 2048 + 1 * p.val = r.val; omega
  | ⟨1, _⟩ => show win0_0.index t (1 : Fin 2) * 1024 + 1 * k.val = k.val; omega

/-- The weight's block at any point is the whole weight. -/
theorem weight_blk (c : Dev nD) (t : Fin cfg0.N) (k : Fin 1024) (q : Fin 512) :
    iblk m c 1 t (ix2 k q) = (V m c main_v7 : S1024x512.Idx → EReal) (ix2 k q) := by
  obtain ⟨-, -, e2, e3, -⟩ := idx_facts t
  show V m c main_v7 (((cfg0.win 1).blk t).view.emb (ix2 k q)) = V m c main_v7 (ix2 k q)
  refine congrArg (V m c main_v7 : S1024x512.Idx → EReal) (funext fun a => Fin.ext ?_)
  match a with
  | ⟨0, _⟩ => show win0_1.index t (0 : Fin 2) * 1024 + 1 * k.val = k.val; omega
  | ⟨1, _⟩ => show win0_1.index t (1 : Fin 2) * 512 + 1 * q.val = q.val; omega

/-- The offset's block at any point is the whole offset. -/
theorem offset_blk (c : Dev nD) (t : Fin cfg0.N) (q : Fin 512) :
    iblk m c 2 t (ix2 (0 : Fin 1) q) = (V m c main_v14 : S1x512.Idx → EReal) (ix2 (0 : Fin 1) q) := by
  obtain ⟨-, -, -, -, e4, e5, -⟩ := idx_facts t
  show V m c main_v14 (((cfg0.win 2).blk t).view.emb (ix2 (0 : Fin 1) q)) = V m c main_v14 (ix2 (0 : Fin 1) q)
  refine congrArg (V m c main_v14 : S1x512.Idx → EReal) (funext fun a => Fin.ext ?_)
  match a with
  | ⟨0, _⟩ => show win0_2.index t (0 : Fin 2) * 1 + 1 * ((0 : Fin 1) : ℕ) = ((0 : Fin 1) : ℕ); omega
  | ⟨1, _⟩ => show win0_2.index t (1 : Fin 2) * 512 + 1 * q.val = q.val; omega

/-- What point t writes back is block t of `rowsTimes` of the three arrays as the region finds them. -/
theorem flushed_eq (c : Dev nD) (t : Fin cfg0.N) :
    (dats m 0 c).flushed 3 t
      = ((cfg0.win 3).blk t).view.read (Elt Ideal) (rowsTimes (V m c main_v0) (V m c main_v7) (V m c main_v14)) := by
  show (cfg0.win 3).cut (grid0.coords t) ((dats m 0 c).after 3 t) = _
  rw [after0_3]
  unfold out0_3
  rw [View.canon_unit_zero hz]
  simp only [View.ld_unit_zero (S := S2048x1024) hz, View.ld_unit_zero (S := S1024x512) hz, View.ld_unit_zero (S := S1x512) hz]
  obtain ⟨-, -, -, -, -, -, e6, e7⟩ := idx_facts t
  funext j
  obtain ⟨p, q, rfl⟩ : ∃ (p : Fin 2048) (q : Fin 512), j = ix2 p q := ⟨j 0, j 1, eq_ix2 j⟩
  have hp : p.val < 2048 := p.isLt
  have hq : q.val < 512 := q.isLt
  show k0_pay1 (F := Ideal) (iblk m c 0 t) (iblk m c 1 t) (iblk m c 2 t) (ix2 p q)
      = rowsTimes (V m c main_v0) (V m c main_v7) (V m c main_v14) (((cfg0.win 3).blk t).view.emb (ix2 p q))
  refine (Cert.KernelIdeal.Body.pay_apply (iblk m c 0 t) (iblk m c 1 t) (iblk m c 2 t) p q).trans ?_
  have hr0 : ((((cfg0.win 3).blk t).view.emb (ix2 p q)) 0).val = t.val * 2048 + p.val := by
    show win0_3.index t (0 : Fin 2) * 2048 + 1 * p.val = _; omega
  have hr1 : (((cfg0.win 3).blk t).view.emb (ix2 p q)) 1 = q := Fin.ext (by
    show win0_3.index t (1 : Fin 2) * 512 + 1 * q.val = _; omega)
  unfold rowsTimes
  rw [hr1]
  refine congrArg₂ (· + ·) (Finset.sum_congr rfl fun k _ => congrArg₂ (· * ·) ?_ ?_) ?_
  · exact rows_blk m c t p k _ hr0
  · exact weight_blk m c t k q
  · exact offset_blk m c t q

/-- An index of the array is in point t's block iff each coordinate is in the block's range on its axis. -/
theorem mem_blk (t : Fin cfg0.N) (i : S16384x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v15).slice (win0_3.rect t)).set ↔ _
  rw [View.set_slice_whole, Rect.mem_set_unit]
  exact Iff.rfl

/-- Row r of the array lies in the block of the point r / 2048, which writes back. -/
theorem cover (i : S16384x512.Idx) :
    ∃ t : Fin cfg0.N, (cfg0.win 3).flush t = true ∧ i ∈ ((cfg0.win 3).blk t).view.set := by
  have hi0 : (i 0).val < 16384 := (i 0).isLt
  have hi1 : (i 1).val < 512 := (i 1).isLt
  have hN : grid0.N = 8 := N_0
  have hlt : (i 0).val / 2048 < cfg0.N := by show _ < grid0.N; omega
  obtain ⟨-, -, -, -, -, -, e6, e7⟩ := idx_facts ⟨(i 0).val / 2048, hlt⟩
  refine ⟨⟨(i 0).val / 2048, hlt⟩, flush0_3 _, ?_⟩
  rw [mem_blk]
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + 2048
    rw [e6]; show (i 0).val / 2048 * 2048 ≤ (i 0).val ∧ (i 0).val < (i 0).val / 2048 * 2048 + 2048; omega
  | ⟨1, _⟩ =>
    show win0_3.index ⟨(i 0).val / 2048, hlt⟩ (1 : Fin 2) * 512 ≤ (i 1).val
      ∧ (i 1).val < win0_3.index ⟨(i 0).val / 2048, hlt⟩ (1 : Fin 2) * 512 + 512
    rw [e7]; omega

/-- The output array after the run: every row of the rows array against the combined weight, plus the combined offset. -/
theorem final (c : Dev nD) :
    (dats m 0 c).arrAt 3 cfg0.N = rowsTimes (V m c main_v0) (V m c main_v7) (V m c main_v14) :=
  (dats m 0 c).arrAt_eq_of_cover 3 _ (fun t _ => flushed_eq m c t) cover

end Cert.KernelIdeal.Blocks

end
-- ==== Proof.AffineLaw.lean ====
/-
  The algebra that joins the two programs.

  One side applies ONE affine map whose weight and offset were combined first,
      ∑ k, x k * ((h * wo k + h * wi k) + wr k)  +  ((h * bo + h * bi) + br),
  the other combines THREE affine maps of the same row afterwards,
      (h * (∑ k, x k * wo k + bo) + h * (∑ k, x k * wi k + bi)) + (∑ k, x k * wr k + br).
  Over the reals they are equal by distributivity. Over the extended reals distributivity fails at the infinities, so the
  law is stated for entries that are (coercions of) real numbers; the scalar h is the literal one half, a real as well.
-/
import Idealize.ShloMosaic.PureOps.Ideal

noncomputable section

namespace Cert.AffineLaw

open Idealize.ShloMosaic

/-- An extended real that is a real number. -/
def IsReal (x : EReal) : Prop := ∃ r : ℝ, x = (r : EReal)

/-- An extended real strictly between the two infinities is a real number. -/
theorem isReal_of_ne {x : EReal} (ht : x ≠ ⊤) (hb : x ≠ ⊥) : IsReal x :=
  ⟨x.toReal, (EReal.coe_toReal ht hb).symm⟩

/-- The coercion of a finite sum of reals is the sum of the coercions. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The law over the reals: distribute the row over the combined weight, and the scalar over each affine map. -/
theorem real_law {K : ℕ} (h : ℝ) (x wo wi wr : Fin K → ℝ) (bo bi br : ℝ) :
    (∑ k, x k * ((h * wo k + h * wi k) + wr k)) + ((h * bo + h * bi) + br)
      = (h * ((∑ k, x k * wo k) + bo) + h * ((∑ k, x k * wi k) + bi)) + ((∑ k, x k * wr k) + br) := by
  have e : ∀ k, x k * ((h * wo k + h * wi k) + wr k) = h * (x k * wo k) + h * (x k * wi k) + x k * wr k := by
    intro k; ring
  simp only [e, Finset.sum_add_distrib, ← Finset.mul_sum]
  ring

/-- The law over the extended reals, for real entries. -/
theorem ereal_law {K : ℕ} (h : EReal) (x wo wi wr : Fin K → EReal) (bo bi br : EReal)
    (hh : IsReal h) (hx : ∀ k, IsReal (x k)) (hwo : ∀ k, IsReal (wo k)) (hwi : ∀ k, IsReal (wi k))
    (hwr : ∀ k, IsReal (wr k)) (hbo : IsReal bo) (hbi : IsReal bi) (hbr : IsReal br) :
    (∑ k, x k * ((h * wo k + h * wi k) + wr k)) + ((h * bo + h * bi) + br)
      = (h * ((∑ k, x k * wo k) + bo) + h * ((∑ k, x k * wi k) + bi)) + ((∑ k, x k * wr k) + br) := by
  obtain ⟨h', rfl⟩ := hh
  obtain ⟨bo', rfl⟩ := hbo
  obtain ⟨bi', rfl⟩ := hbi
  obtain ⟨br', rfl⟩ := hbr
  choose x' hx' using hx
  choose wo' hwo' using hwo
  choose wi' hwi' using hwi
  choose wr' hwr' using hwr
  simp only [hx', hwo', hwi', hwr', ← EReal.coe_mul, ← EReal.coe_add, ← coe_sum]
  exact congrArg _ (real_law h' x' wo' wi' wr' bo' bi' br')

/-- The literal one half. -/
theorem ofBits_half : Ideal.ofBits .f32 0x3F000000#32 = ((1 / 2 : ℝ) : EReal) := by
  simp [Ideal.ofBits, Ideal.ieee, -EReal.coe_mul]; norm_num

theorem isReal_half : IsReal (Ideal.ofBits .f32 0x3F000000#32) := ⟨_, ofBits_half⟩

end Cert.AffineLaw

end
-- ==== Proof.Spec.lean ====
/-
  The result as a function of the argument arrays, in the two arrangements the two programs compute it in.

  X is the input with its two leading axes merged: a [16384, 1024] array of rows. For the three [1024, 512] weights
  wi, wo, wr and the three [512] offsets bi, bo, br, and with h the literal one half, entry (p, q) of the result is

    three :  (h * (∑ k, X (p,k) * wo (k,q) + bo q) + h * (∑ k, X (p,k) * wi (k,q) + bi q)) + (∑ k, X (p,k) * wr (k,q) + br q)
    one   :  ∑ k, X (p,k) * ((h * wo (k,q) + h * wi (k,q)) + wr (k,q))  +  ((h * bo q + h * bi q) + br q)

  three affine maps combined afterwards, or one affine map with the weight and the offset combined first. They agree
  wherever every entry involved is a real number.
-/
import proofs.«100815_j42640435315454_2_alg».proof.Proof.AffineLaw
import Idealize.ShloMosaic.Lib.ValueIdx

noncomputable section

namespace Cert.Spec

open Idealize.ShloMosaic Idealize.ShloMosaic.ValueIdx Cert.AffineLaw

/-- The literal one half, as the extended real its pattern denotes. -/
def half : EReal := Ideal.ofBits .f32 0x3F000000#32

abbrev Rows : Type := (⟨2, ![16384, 1024]⟩ : Shape).Idx → EReal
abbrev Weight : Type := (⟨2, ![1024, 512]⟩ : Shape).Idx → EReal
abbrev Offset : Type := (⟨1, ![512]⟩ : Shape).Idx → EReal

/-- Three affine maps of row p, combined afterwards. -/
def three (X : Rows) (wi : Weight) (bi : Offset) (wo : Weight) (bo : Offset) (wr : Weight) (br : Offset)
    (p : Fin 16384) (q : Fin 512) : EReal :=
  (half * ((∑ k : Fin 1024, X (ix2 p k) * wo (ix2 k q)) + bo (ix1 q))
    + half * ((∑ k : Fin 1024, X (ix2 p k) * wi (ix2 k q)) + bi (ix1 q)))
  + ((∑ k : Fin 1024, X (ix2 p k) * wr (ix2 k q)) + br (ix1 q))

/-- One affine map of row p, its weight and offset combined first. -/
def one (X : Rows) (wi : Weight) (bi : Offset) (wo : Weight) (bo : Offset) (wr : Weight) (br : Offset)
    (p : Fin 16384) (q : Fin 512) : EReal :=
  (∑ k : Fin 1024, X (ix2 p k) * ((half * wo (ix2 k q) + half * wi (ix2 k q)) + wr (ix2 k q)))
  + ((half * bo (ix1 q) + half * bi (ix1 q)) + br (ix1 q))

/-- The two arrangements agree at (p, q) when the rows, the weights and the offsets hold real numbers. -/
theorem one_eq_three (X : Rows) (wi : Weight) (bi : Offset) (wo : Weight) (bo : Offset) (wr : Weight) (br : Offset)
    (hX : ∀ j, IsReal (X j)) (hwi : ∀ j, IsReal (wi j)) (hbi : ∀ j, IsReal (bi j)) (hwo : ∀ j, IsReal (wo j))
    (hbo : ∀ j, IsReal (bo j)) (hwr : ∀ j, IsReal (wr j)) (hbr : ∀ j, IsReal (br j)) (p : Fin 16384) (q : Fin 512) :
    one X wi bi wo bo wr br p q = three X wi bi wo bo wr br p q :=
  ereal_law half (fun k => X (ix2 p k)) (fun k => wo (ix2 k q)) (fun k => wi (ix2 k q)) (fun k => wr (ix2 k q))
    (bo (ix1 q)) (bi (ix1 q)) (br (ix1 q)) isReal_half (fun _ => hX _) (fun _ => hwo _) (fun _ => hwi _)
    (fun _ => hwr _) (hbo _) (hbi _) (hbr _)

end Cert.Spec

end
-- ==== Proof.KernelHost.lean ====
/-
  What the region finds in its three input arrays.

  Before the region the host merges the input's two leading axes (the rows), combines the three weights into
  (h * wo + h * wi) + wr and rounds the sum to bf16 (the identity on extended reals), and combines the three offsets into
  (h * bo + h * bi) + br, cast from [512] to [1, 512]. Here h is the literal one half.
-/
import proofs.«100815_j42640435315454_2_alg».proof.Proof.Gen.KernelIdeal.Frame
import proofs.«100815_j42640435315454_2_alg».proof.Proof.Spec
import Idealize.ShloMosaic.Lib.ValueLayout
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The rows: the input with its two leading axes merged. -/
theorem V_rows (c : Dev nD) :
    (V m c main_v0 : S16384x1024.Idx → EReal)
      = shapeCast S16384x1024 (m ((c : Thread nD τ).loc main_arg0)) shapeCasts_S64x256x1024_S16384x1024 := by
  show StableHlo.after hostOps0 (fun b => m (c, b)) (Proc.devRef .tc main_v0) = _
  after_results <;> rfl

/-- The combined weight, as the host computes it. -/
theorem V_weight (c : Dev nD) :
    (V m c main_v7 : S1024x512.Idx → EReal)
      = truncf (F := Ideal) .bf16 (addf (addf
          (mulf (broadcastInDim S1024x512 ![] bcast_S_S1024x512 (constant (F := Ideal) S_ .f32 0x3F000000#32)) (m ((c : Thread nD τ).loc main_arg4)))
          (mulf (broadcastInDim S1024x512 ![] bcast_S_S1024x512 (constant (F := Ideal) S_ .f32 0x3F000000#32)) (m ((c : Thread nD τ).loc main_arg2))))
          (m ((c : Thread nD τ).loc main_arg6))) bitsLt_bf16_f32 := by
  show StableHlo.after hostOps0 (fun b => m (c, b)) (Proc.devRef .tc main_v7) = _
  after_results <;> rfl

/-- The combined offset, as the host computes it. -/
theorem V_offset (c : Dev nD) :
    (V m c main_v14 : S1x512.Idx → EReal)
      = shapeCast S1x512 (addf (addf
          (mulf (broadcastInDim S512 ![] bcast_S_S512 (constant (F := Ideal) S_ .f32 0x3F000000#32)) (m ((c : Thread nD τ).loc main_arg5)))
          (mulf (broadcastInDim S512 ![] bcast_S_S512 (constant (F := Ideal) S_ .f32 0x3F000000#32)) (m ((c : Thread nD τ).loc main_arg3))))
          (m ((c : Thread nD τ).loc main_arg7))) shapeCasts_S512_S1x512 := by
  show StableHlo.after hostOps0 (fun b => m (c, b)) (Proc.devRef .tc main_v14) = _
  after_results <;> rfl

/-- Entry (k, q) of the combined weight. -/
theorem V_weight_apply (c : Dev nD) (k : Fin 1024) (q : Fin 512) :
    (V m c main_v7 : S1024x512.Idx → EReal) (ix2 k q)
      = (Cert.Spec.half * m ((c : Thread nD τ).loc main_arg4) (ix2 k q)
          + Cert.Spec.half * m ((c : Thread nD τ).loc main_arg2) (ix2 k q))
        + m ((c : Thread nD τ).loc main_arg6) (ix2 k q) := by
  rw [V_weight]
  rfl

/-- Entry (0, q) of the combined offset. -/
theorem V_offset_apply (c : Dev nD) (q : Fin 512) :
    (V m c main_v14 : S1x512.Idx → EReal) (ix2 (0 : Fin 1) q)
      = (Cert.Spec.half * m ((c : Thread nD τ).loc main_arg5) (ix1 q)
          + Cert.Spec.half * m ((c : Thread nD τ).loc main_arg3) (ix1 q))
        + m ((c : Thread nD τ).loc main_arg7) (ix1 q) := by
  rw [V_offset, shapeCast_a_1a_apply]
  rfl

end Cert.KernelIdeal.HostSide

end
-- ==== Proof.KernelValue.lean ====
/-
  The kernel program's result.

  The region leaves in the [16384, 512] output array every row of the rows array against the combined weight, plus the
  combined offset; with the host's combinations opened this is the one-map arrangement `Cert.Spec.one` of the merged input
  and the six parameter arrays. After the region the host only splits the leading axis back into [64, 256].
-/
import proofs.«100815_j42640435315454_2_alg».proof.Proof.KernelBlocks
import proofs.«100815_j42640435315454_2_alg».proof.Proof.KernelHost

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The [16384, 512] array the kernel program computes, as a function of its arguments: one affine map of each row. -/
def out (c : Dev nD) : S16384x512.Idx → EReal := fun i =>
  Cert.Spec.one (shapeCast S16384x1024 (m ((c : Thread nD τ).loc main_arg0)) shapeCasts_S64x256x1024_S16384x1024)
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (i 0) (i 1)

/-- The same arguments in the three-maps arrangement, -/
def out3 (c : Dev nD) : S16384x512.Idx → EReal := fun i =>
  Cert.Spec.three (shapeCast S16384x1024 (m ((c : Thread nD τ).loc main_arg0)) shapeCasts_S64x256x1024_S16384x1024)
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (i 0) (i 1)

/-- and that array with its leading axis split into [64, 256]: the value both programs' results are compared with. -/
def res3 (c : Dev nD) : S64x256x512.Idx → EReal :=
  shapeCast S64x256x512 (out3 m c) shapeCasts_S16384x512_S64x256x512

/-- Where the two arrangements agree, the kernel program's result is that value. -/
theorem res_eq (c : Dev nD) (h : out m c = out3 m c) :
    shapeCast S64x256x512 (out m c) shapeCasts_S16384x512_S64x256x512 = res3 m c := by
  unfold res3
  rw [h]

/-- Every row against the weight plus the offset, read at the entry (p, q). -/
theorem rowsTimes_ix2 (R : S16384x1024.Idx → EReal) (W : S1024x512.Idx → EReal) (B : S1x512.Idx → EReal)
    (p : Fin 16384) (q : Fin 512) :
    Blocks.rowsTimes R W B (ix2 p q) = (∑ k : Fin 1024, R (ix2 p k) * W (ix2 k q)) + B (ix2 (0 : Fin 1) q) := rfl

/-- Entry (p, q) of the region's output, with the host's combined weight and offset opened. -/
theorem rowsTimes_apply (c : Dev nD) (p : Fin 16384) (q : Fin 512) :
    Blocks.rowsTimes (V m c main_v0) (V m c main_v7) (V m c main_v14) (ix2 p q) = out m c (ix2 p q) := by
  rw [rowsTimes_ix2, HostSide.V_offset_apply, HostSide.V_rows]
  refine congrArg₂ (· + ·) (Finset.sum_congr rfl fun k _ => ?_) rfl
  rw [HostSide.V_weight_apply] <;> rfl

/-- The output array after the run. -/
theorem final_out (c : Dev nD) : (dats m 0 c).arrAt 3 cfg0.N = out m c := by
  rw [Blocks.final]
  funext i
  obtain ⟨p, q, rfl⟩ : ∃ (p : Fin 16384) (q : Fin 512), i = ix2 p q := ⟨i 0, i 1, eq_ix2 i⟩
  exact rowsTimes_apply m c p q

/-- The program's result after the frame run: the output array with its leading axis split. -/
theorem result (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v16) = shapeCast S64x256x512 (out m c) shapeCasts_S16384x512_S64x256x512 := by
  refine ((h c).2 main_v16 (Pipeline.mem_restRefs_of main_v16 (by decide) (by decide))).trans ?_
  unfold Pipeline.afterTail₀
  show StableHlo.after hostOps1 _ (Proc.devRef .tc main_v16) = _
  after_results
  exact congrArg (fun y => shapeCast S64x256x512 y shapeCasts_S16384x512_S64x256x512)
    ((Pipeline.withArrays_arr spec0 launch0.win.arr_inj c _ _ 3).trans (final_out m c))

/-- Every weakly fair execution of the kernel program terminates with the result at the split output array and the
    arguments unchanged. -/
theorem run : θ_run defs (onTc (τ := τ) (main (F := Ideal))) ⟨m, fun _ => 0, ρ⟩ fun r => ∀ c : Dev nD,
      r.2.mem ((c.tc : Thread nD τ).loc main_v16) = shapeCast S64x256x512 (out m c) shapeCasts_S16384x512_S64x256x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨result m r h c,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KValue

end
-- ==== Proof.RefValue.lean ====
/-
  The reference's result is the three-maps arrangement.

  The reference merges the input's two leading axes into rows, takes the three products of the rows with the three
  weights, adds each offset (broadcast over the rows), scales the first two sums by one half, adds the three, and splits
  the leading axis again. Read at an entry (p, q) of the [16384, 512] array before the final split this is
  `Cert.Spec.three` of the rows and the six parameter arrays.
-/
import proofs.«100815_j42640435315454_2_alg».proof.Proof.Gen.ReferenceIdeal.Read
import proofs.«100815_j42640435315454_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable (p : Fin 16384) (q : Fin 512) (k : Fin 1024)

/-! Where each operation reads its operands, for the entry (p, q): row p and column k of the rows, row k and column q of a
    weight, position q of an offset. -/

theorem lidx1 : lidx_main_v1 (ix2 p q) k = ix2 p k :=
  funext fun a => Fin.ext (by match a with | ⟨0, _⟩ => rfl | ⟨1, _⟩ => rfl)
theorem ridx1 : ridx_main_v1 (ix2 p q) k = ix2 k q :=
  funext fun a => Fin.ext (by match a with | ⟨0, _⟩ => rfl | ⟨1, _⟩ => rfl)
theorem lidx7 : lidx_main_v7 (ix2 p q) k = ix2 p k :=
  funext fun a => Fin.ext (by match a with | ⟨0, _⟩ => rfl | ⟨1, _⟩ => rfl)
theorem ridx7 : ridx_main_v7 (ix2 p q) k = ix2 k q :=
  funext fun a => Fin.ext (by match a with | ⟨0, _⟩ => rfl | ⟨1, _⟩ => rfl)
theorem lidx14 : lidx_main_v14 (ix2 p q) k = ix2 p k :=
  funext fun a => Fin.ext (by match a with | ⟨0, _⟩ => rfl | ⟨1, _⟩ => rfl)
theorem ridx14 : ridx_main_v14 (ix2 p q) k = ix2 k q :=
  funext fun a => Fin.ext (by match a with | ⟨0, _⟩ => rfl | ⟨1, _⟩ => rfl)
theorem oidx3 : idx_main_v2 (idx_main_v3 (ix2 p q)) = ix1 q :=
  funext fun a => Fin.ext (by match a with | ⟨0, _⟩ => rfl)
theorem oidx9 : idx_main_v8 (idx_main_v9 (ix2 p q)) = ix1 q :=
  funext fun a => Fin.ext (by match a with | ⟨0, _⟩ => rfl)
theorem oidx16 : idx_main_v15 (idx_main_v16 (ix2 p q)) = ix1 q :=
  funext fun a => Fin.ext (by match a with | ⟨0, _⟩ => rfl)

/-- The sum of the three scaled affine maps, before the final split of the leading axis, at the entry (p, q). -/
theorem v18_apply (x0 : (⟨S64x256x1024, .f32⟩ : BufTy).Contents (Elt Ideal)) (x2 : (⟨S1024x512, .f32⟩ : BufTy).Contents (Elt Ideal))
    (x3 : (⟨S512, .f32⟩ : BufTy).Contents (Elt Ideal)) (x4 : (⟨S1024x512, .f32⟩ : BufTy).Contents (Elt Ideal))
    (x5 : (⟨S512, .f32⟩ : BufTy).Contents (Elt Ideal)) (x6 : (⟨S1024x512, .f32⟩ : BufTy).Contents (Elt Ideal))
    (x7 : (⟨S512, .f32⟩ : BufTy).Contents (Elt Ideal)) :
    val_main_v18 (F := Ideal) x0 x2 x3 x4 x5 x6 x7 (ix2 p q)
      = Cert.Spec.three (val_main_v0 (F := Ideal) x0) x2 x3 x4 x5 x6 x7 p q := by
  rw [val_main_v18_apply, val_main_v13_apply, val_main_v17_apply, val_main_v6_apply, val_main_v12_apply,
    val_main_v4_apply, val_main_v10_apply, val_main_v1_apply, val_main_v7_apply, val_main_v14_apply,
    val_main_v3_apply, val_main_v9_apply, val_main_v16_apply, val_main_v2_apply, val_main_v8_apply, val_main_v15_apply,
    val_main_v5_apply, val_main_v11_apply, val_main_cst_apply, val_main_cst_0_apply]
  simp only [lidx1, ridx1, lidx7, ridx7, lidx14, ridx14, oidx3, oidx9, oidx16, Ideal.addf_def, Ideal.mulf_def,
    Ideal.ofBits_def]
  rfl

/-- The reference's result: the three-maps arrangement of the rows, its leading axis split into [64, 256]. -/
theorem v19_eq (x0 : (⟨S64x256x1024, .f32⟩ : BufTy).Contents (Elt Ideal)) (x2 : (⟨S1024x512, .f32⟩ : BufTy).Contents (Elt Ideal))
    (x3 : (⟨S512, .f32⟩ : BufTy).Contents (Elt Ideal)) (x4 : (⟨S1024x512, .f32⟩ : BufTy).Contents (Elt Ideal))
    (x5 : (⟨S512, .f32⟩ : BufTy).Contents (Elt Ideal)) (x6 : (⟨S1024x512, .f32⟩ : BufTy).Contents (Elt Ideal))
    (x7 : (⟨S512, .f32⟩ : BufTy).Contents (Elt Ideal)) :
    val_main_v19 (F := Ideal) x0 x2 x3 x4 x5 x6 x7
      = shapeCast S64x256x512 (fun i : S16384x512.Idx =>
          Cert.Spec.three (val_main_v0 (F := Ideal) x0) x2 x3 x4 x5 x6 x7 (i 0) (i 1)) shapeCasts_S16384x512_S64x256x512 := by
  unfold val_main_v19
  refine congrArg (fun y => shapeCast S64x256x512 y shapeCasts_S16384x512_S64x256x512) ?_
  funext i
  obtain ⟨p, q, rfl⟩ : ∃ (p : Fin 16384) (q : Fin 512), i = ix2 p q := ⟨i 0, i 1, eq_ix2 i⟩
  exact v18_apply p q x0 x2 x3 x4 x5 x6 x7

end Cert.ReferenceIdeal.RefValue

end
-- ==== Proof.Finite.lean ====
/-
  What the precondition says: every entry of every float input is a real number.

  The precondition is the conjunction, over the seven float inputs a, of  all (|a| < +∞).  Each conjunct is a reduction
  by `and` of the entrywise comparisons; where it is 1, every comparison is 1, so every entry x has max x (-x) < ⊤, that
  is, x is neither infinity.
-/
import proofs.«100815_j42640435315454_2_alg».proof.Pre_finite_inputs
import proofs.«100815_j42640435315454_2_alg».proof.Proof.Gen.Pre_finite_inputs
import proofs.«100815_j42640435315454_2_alg».proof.Proof.AffineLaw
import Idealize.ShloMosaic.Lib.ReduceAll
import Idealize.ShloMosaic.Lib.ValueIdx

noncomputable section

namespace Cert.Pre_finite_inputs.Decode

open Cert.Pre_finite_inputs Cert.Pre_finite_inputs.Facts Idealize.ShloMosaic Cert.AffineLaw

instance : Subsingleton S_.Idx := ⟨fun a b => funext fun d => d.elim0⟩

/-- The pattern the inputs are compared with denotes +∞. -/
theorem ofBits_inf : Ideal.ofBits .f32 0x7F800000#32 = ⊤ := by
  simp [Ideal.ofBits, Ideal.ieee]

/-- An extended real whose absolute value is below +∞ is a real number. -/
theorem isReal_of_abs_lt (x : EReal)
    (h : Ideal.cmp .olt (max x (-x)) (Ideal.ofBits .f32 0x7F800000#32) = 1#1) : IsReal x := by
  rw [ofBits_inf] at h
  have hlt : max x (-x) < ⊤ := by
    by_contra hn
    simp [Ideal.cmp, hn] at h
  have h1 : x < ⊤ := lt_of_le_of_lt (le_max_left _ _) hlt
  have h2 : -x < ⊤ := lt_of_le_of_lt (le_max_right _ _) hlt
  refine isReal_of_ne h1.ne ?_
  rintro rfl
  simp at h2

/-- One conjunct: where `all (|a| < +∞)` is 1, every entry of a is a real number. -/
theorem all_real {s : Shape} {axes : List (Fin s.rank)} (a : FVec Ideal s .f32)
    (bc : S_.BroadcastsInDim s (![] : Fin 0 → Fin s.rank)) (hr : s.ReducesTo axes S_) (hu : 0 < S_.numel)
    (h : Host.reduce IntOp.andi (cmpf .olt (Host.absf a) (broadcastInDim s ![] bc (constant (F := Ideal) S_ .f32 0x7F800000#32)))
          (constantI S_ 1 1#1) hr hu ValueIdx.ix0 = 1#1) (j : s.Idx) : IsReal (a j) :=
  isReal_of_abs_lt (a j) (Host.reduce_andi_all _ _ hr hu _ h j)

/-- The precondition's function at 1 makes every float input real, entry by entry. -/
theorem reals (a0 : FVec Ideal S64x256x1024 .f32) (a1 : IVec S64x256x256 32) (a2 : FVec Ideal S1024x512 .f32)
    (a3 : FVec Ideal S512 .f32) (a4 : FVec Ideal S1024x512 .f32) (a5 : FVec Ideal S512 .f32)
    (a6 : FVec Ideal S1024x512 .f32) (a7 : FVec Ideal S512 .f32)
    (h : fn (F := Ideal) a0 a1 a2 a3 a4 a5 a6 a7 = fun _ => 1#1) :
    (∀ j, IsReal (a0 j)) ∧ (∀ j, IsReal (a2 j)) ∧ (∀ j, IsReal (a3 j)) ∧ (∀ j, IsReal (a4 j))
      ∧ (∀ j, IsReal (a5 j)) ∧ (∀ j, IsReal (a6 j)) ∧ (∀ j, IsReal (a7 j)) := by
  have h0 := congrFun h ValueIdx.ix0
  dsimp only [fn, fn_part1, andi] at h0
  obtain ⟨h28, c7⟩ := IntOp.andi_eq_one.1 h0
  obtain ⟨h23, c6⟩ := IntOp.andi_eq_one.1 h28
  obtain ⟨h18, c5⟩ := IntOp.andi_eq_one.1 h23
  obtain ⟨h13, c4⟩ := IntOp.andi_eq_one.1 h18
  obtain ⟨h8, c3⟩ := IntOp.andi_eq_one.1 h13
  obtain ⟨c0, c2⟩ := IntOp.andi_eq_one.1 h8
  exact ⟨all_real a0 _ _ _ c0, all_real a2 _ _ _ c2, all_real a3 _ _ _ c3, all_real a4 _ _ _ c4,
    all_real a5 _ _ _ c5, all_real a6 _ _ _ c6, all_real a7 _ _ _ c7⟩

end Cert.Pre_finite_inputs.Decode

end
-- ==== Proof.lean ====
/-
  A directed graph convolution with one Chebyshev term: three affine maps of the same rows, fused into one.

  The input x : [64, 256, 1024] is read as 16384 rows of length 1024. The reference applies three affine maps to every
  row — weights wo, wi, wr : [1024, 512], offsets bo, bi, br : [512] — and combines them afterwards with the scalar one half:
      y (p, q) = (½ (∑ k, x (p,k) wo (k,q) + bo q) + ½ (∑ k, x (p,k) wi (k,q) + bi q)) + (∑ k, x (p,k) wr (k,q) + br q).
  The kernel program combines the weights and the offsets FIRST, on the host,
      w = (½ wo + ½ wi) + wr,   b = (½ bo + ½ bi) + br,
  and then computes the one affine map  ∑ k, x (p,k) w (k,q) + b q  in a grid of eight blocks of 2048 rows. The rounding of w
  and of the rows to bf16 is the identity on extended reals, and both programs split the 16384 rows back into [64, 256]
  by the same reshape.

  The two results agree by distributivity — of a row over the combined weight, of one half over each affine map — which on the
  extended reals holds where no infinity is involved: the precondition makes every entry of every float input a real number,
  and the literal one half is a real number. The integer input (an adjacency array) enters neither program's arithmetic.

  The modules: AffineLaw (the law, over reals lifted to extended reals), Spec (the two arrangements as functions of the
  arrays), Finite (the precondition read entry by entry), RefValue (the reference's result is the three-maps arrangement),
  KernelBody / KernelHost / KernelBlocks / KernelValue (the kernel program's result is the one-map arrangement), LibPlainDot
  (a plain matrix product at an entry). No rewrite was applied when the kernel program was idealized, so that claim is trivial.
-/
import proofs.«100815_j42640435315454_2_alg».proof.Defs
import proofs.«100815_j42640435315454_2_alg».proof.Proof.Gen.Kernel
import proofs.«100815_j42640435315454_2_alg».proof.Proof.Gen.Kernel.Skeleton
import proofs.«100815_j42640435315454_2_alg».proof.Proof.Gen.Kernel.Launch
import proofs.«100815_j42640435315454_2_alg».proof.Proof.Gen.Kernel.Points
import proofs.«100815_j42640435315454_2_alg».proof.Proof.Gen.Kernel.Frame
import proofs.«100815_j42640435315454_2_alg».proof.Proof.Gen.KernelIdeal
import proofs.«100815_j42640435315454_2_alg».proof.Proof.Gen.KernelIdeal.Skeleton
import proofs.«100815_j42640435315454_2_alg».proof.Proof.Gen.KernelIdeal.Launch
import proofs.«100815_j42640435315454_2_alg».proof.Proof.Gen.KernelIdeal.Points
import proofs.«100815_j42640435315454_2_alg».proof.Proof.Gen.KernelIdeal.Frame
import proofs.«100815_j42640435315454_2_alg».proof.Proof.Gen.ReferenceIdeal
import proofs.«100815_j42640435315454_2_alg».proof.Proof.Gen.ReferenceIdeal.Run
import proofs.«100815_j42640435315454_2_alg».proof.Proof.Gen.ReferenceIdeal.Read
import proofs.«100815_j42640435315454_2_alg».proof.Proof.Gen.Pre_finite_inputs
import proofs.«100815_j42640435315454_2_alg».proof.Proof.KernelValue
import proofs.«100815_j42640435315454_2_alg».proof.Proof.RefValue
import proofs.«100815_j42640435315454_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition the one-map arrangement of the kernel program's arguments is the three-maps arrangement. -/
theorem out_eq_out3 (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.KValue.out m c = Cert.KernelIdeal.KValue.out3 m c := by
  obtain ⟨h0, h2, h3, h4, h5, h6, h7⟩ := Cert.Pre_finite_inputs.Decode.reals _ _ _ _ _ _ _ _ (hpre c)
  funext i
  exact Cert.Spec.one_eq_three _ _ _ _ _ _ _ (fun _ => h0 _) h2 h3 h4 h5 h6 h7 (i 0) (i 1)

/-- Both programs end at the three-maps arrangement of the (agreeing) arguments, its leading axis split. -/
theorem algebraic : Cert.algebraic_KernelIdeal_ReferenceIdeal := by
  intro m ρ m' ρ' hpre hagree
  refine ⟨fun c => Cert.KernelIdeal.KValue.res3 m c, ?_, ?_⟩
  · exact (θ_run Cert.KernelIdeal.defs _ _).mono
      (fun r h c => ⟨(h c).1.trans (Cert.KernelIdeal.KValue.res_eq m c (out_eq_out3 m hpre c)), (h c).2⟩)
      (Cert.KernelIdeal.KValue.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v19_eq, Cert.ReferenceIdeal.RefValue.v19_eq, (hagree c).1, (hagree c).2.2.1,
      (hagree c).2.2.2.1, (hagree c).2.2.2.2.1, (hagree c).2.2.2.2.2.1, (hagree c).2.2.2.2.2.2.1, (hagree c).2.2.2.2.2.2.2] <;> rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
